-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_arg3 : IVec S16x2048x2048 32) (main_v13 : IVec S_ 1) (main_v15 : IVec S16x2048x2048 1) (main_c_5 : IVec S_ 32) : IVec S_ 1 :=
  let main_v16 : IVec S16x2048x2048 32 := broadcastInDim S16x2048x2048 ![] bcast_S_S16x2048x2048 main_c_5
  let main_v17 : IVec S16x2048x2048 1 := cmpi .eq main_arg3 main_v16
  let main_v18 : IVec S16x2048x2048 1 := ori main_v15 main_v17
  let main_c_6 : IVec S_ 1 := constantI S_ 1 1#1
  let main_v19 : IVec S_ 1 := (fun x v => Host.reduce IntOp.andi x v reducesTo_S16x2048x2048_S_d0_1_2 h_S_) main_v18 main_c_6
  let main_v20 : IVec S_ 1 := andi main_v13 main_v19
  main_v20

def fn {F : FTy → Type} [FloatOps F] (main_arg0 : FVec F S16x2048x64 .f32) (main_arg1 : FVec F S16x2048x64 .f32) (main_arg2 : FVec F S16x2048x64 .f32) (main_arg3 : IVec S16x2048x2048 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_c_4 : IVec S_ 32 := constantI S_ 32 0#32
  let main_v14 : IVec S16x2048x2048 32 := broadcastInDim S16x2048x2048 ![] bcast_S_S16x2048x2048 main_c_4
  let main_v15 : IVec S16x2048x2048 1 := cmpi .eq main_arg3 main_v14
  let main_c_5 : IVec S_ 32 := constantI S_ 32 1#32
  fn_part1 (F := F) main_arg3 main_v13 main_v15 main_c_5
-- ==== Kernel.lean ====
abbrev S16x2048x64 : Shape := ⟨3, ![16, 2048, 64]⟩
abbrev S16x2048x2048 : Shape := ⟨3, ![16, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S16x2048x64, .f32⟩
  | .hbm, ⟨5, _⟩ => ⟨S16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x256x2048, .i32⟩
  | .local _ .vmem, ⟨5, _⟩ => ⟨S1x256x2048, .i32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  broadcasts_S256x1_S256x64 : S256x1.Broadcasts S256x64
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x2048x2048.size a
  hwx0_3 : ∀ i : grid0.Coords, EltTy.bits .i32 = 32 ∨ (Rect.block (s := S16x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S16x2048x64.size a
  hwx0_4 : ∀ i : grid0.Coords, EltTy.bits .f32 = 32 ∨ (Rect.block (s := S16x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x2048x2048.size a
  hwx0_5 : ∀ i : grid0.Coords, EltTy.bits .f32 = 32 ∨ (Rect.block (s := S16x2048x2048) S1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S_, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibSoftmaxRow.lean ====
/-
  A softmax row on the extended reals, in two spellings.

  A row of logits `x : Fin n → EReal` gives its maximum `rowMax x` (taken from −∞), the shifted exponentials
  `rowExp x c = exp (x c − rowMax x)` and their sum `rowSum x`.
  • Reciprocal spelling: each exponential times `1 / rowSum` (`attnK`), and a weighted sum of values scaled by `1 / rowSum`
    afterwards (`outK`).
  • Quotient spelling: each exponential divided by `0 + rowSum` (`attnR`), and the values weighted by the quotients (`outR`).
  The one and the zero are written as the f32 words a printed program carries (`0x3F800000`, `0x00000000`).
  Over a nonempty row of REAL logits the maximum is a real (`rowMax_coe`), every exponential a positive real and the sum a
  nonzero real (`row_real`), and the two spellings agree, for real values too (`attn_eq_of_real`, `out_eq_of_real`): division
  by a nonzero real is multiplication by its reciprocal, and a real factor moves across a finite sum.
  Also: the cast of a finite real sum is the sum of the casts (`coe_sum`), and the words of 1.0 and −∞ (`c_one`, `c_neginf`).
-/
import Idealize.ShloMosaic.PureOps.Ideal.Laws

noncomputable section

namespace Cert.LibSoftmaxRow

open Idealize.ShloMosaic

/-! ## Casts of finite sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The words of 1.0 and −∞ -/

theorem c_one : Ideal.ofBits .f32 0x3F800000#32 = 1 := by
  simp [Ideal.ofBits, Ideal.ieee, -EReal.coe_mul]; norm_num

theorem c_neginf : Ideal.ofBits .f32 0xFF800000#32 = ⊥ := by
  simp [Ideal.ofBits, Ideal.ieee]

variable {n : ℕ}

/-! ## The row's maximum, exponentials and sum -/

/-- The row's maximum, taken from −∞. -/
def rowMax (x : Fin n → EReal) : EReal := Finset.univ.fold max ⊥ x

/-- The exponential of a logit shifted by the row's maximum. -/
def rowExp (x : Fin n → EReal) (c : Fin n) : EReal := Ideal.exp (x c - rowMax x)

/-- The sum of the row's shifted exponentials. -/
def rowSum (x : Fin n → EReal) : EReal := ∑ c, rowExp x c

/-- The maximum of a nonempty row of reals is a real. -/
theorem rowMax_coe (hn : 0 < n) (x : Fin n → ℝ) : ∃ m : ℝ, rowMax (fun c => (x c : EReal)) = (m : EReal) := by
  have hlt : rowMax (fun c => (x c : EReal)) < ⊤ :=
    (Finset.fold_max_lt _).2 ⟨bot_lt_top, fun c _ => EReal.coe_lt_top _⟩
  have hgt : ⊥ < rowMax (fun c => (x c : EReal)) :=
    (Finset.lt_fold_max _).2 (Or.inr ⟨⟨0, hn⟩, Finset.mem_univ _, EReal.bot_lt_coe _⟩)
  exact ⟨(rowMax (fun c => (x c : EReal))).toReal, (EReal.coe_toReal hlt.ne hgt.ne').symm⟩

/-- Over a nonempty real row: every shifted exponential is a real, and their sum is a nonzero real. -/
theorem row_real (hn : 0 < n) (x : Fin n → ℝ) :
    ∃ (E : Fin n → ℝ) (L : ℝ), L ≠ 0 ∧ (∀ c, rowExp (fun c => (x c : EReal)) c = (E c : EReal))
      ∧ rowSum (fun c => (x c : EReal)) = (L : EReal) := by
  obtain ⟨m, hm⟩ := rowMax_coe hn x
  have hE : ∀ c, rowExp (fun c => (x c : EReal)) c = ((Real.exp (x c - m) : ℝ) : EReal) := fun c => by
    unfold rowExp
    rw [hm, ← EReal.coe_sub, Ideal.exp_coe]
  refine ⟨fun c => Real.exp (x c - m), ∑ c, Real.exp (x c - m), ?_, hE, ?_⟩
  · have : 0 < ∑ c : Fin n, Real.exp (x c - m) :=
      Finset.sum_pos (fun c _ => Real.exp_pos _) ⟨⟨0, hn⟩, Finset.mem_univ _⟩
    exact this.ne'
  · unfold rowSum
    rw [coe_sum]
    exact Finset.sum_congr rfl fun c _ => hE c

/-! ## The two spellings of the softmax row and of the output -/

/-- Each exponential times the reciprocal of the row's sum. -/
def attnK (x : Fin n → EReal) (c : Fin n) : EReal :=
  rowExp x c * Ideal.div (Ideal.ofBits .f32 0x3F800000#32) (rowSum x)

/-- The value rows weighted by the exponentials, scaled by the reciprocal of the row's sum afterwards. -/
def outK (x v : Fin n → EReal) : EReal :=
  (∑ c, rowExp x c * v c) * Ideal.div (Ideal.ofBits .f32 0x3F800000#32) (rowSum x)

/-- Each exponential divided by the row's sum (the sum started from zero). -/
def attnR (x : Fin n → EReal) (c : Fin n) : EReal :=
  Ideal.div (rowExp x c) (Ideal.ofBits .f32 0x00000000#32 + rowSum x)

/-- The value rows weighted by the quotients. -/
def outR (x v : Fin n → EReal) : EReal := ∑ c, attnR x c * v c

theorem attn_eq_of_real (hn : 0 < n) (x : Fin n → ℝ) (c : Fin n) :
    attnK (fun c => (x c : EReal)) c = attnR (fun c => (x c : EReal)) c := by
  obtain ⟨E, L, hL, hE, hS⟩ := row_real hn x
  unfold attnK attnR
  rw [hS, hE c, Ideal.ofBits_zero_f32, zero_add, c_one, Ideal.div_coe hL, Ideal.div_coe hL, one_mul]

theorem out_eq_of_real (hn : 0 < n) (x v : Fin n → ℝ) :
    outK (fun c => (x c : EReal)) (fun c => (v c : EReal)) = outR (fun c => (x c : EReal)) (fun c => (v c : EReal)) := by
  obtain ⟨E, L, hL, hE, hS⟩ := row_real hn x
  unfold outK outR attnR
  rw [hS, Ideal.ofBits_zero_f32, zero_add, c_one, Ideal.div_coe hL, one_mul]
  have h1 : (∑ c, rowExp (fun c => (x c : EReal)) c * (v c : EReal)) = ((∑ c, E c * v c : ℝ) : EReal) := by
    rw [coe_sum]
    exact Finset.sum_congr rfl fun c _ => by rw [hE c, EReal.coe_mul]
  have h2 : (∑ c, Ideal.div (rowExp (fun c => (x c : EReal)) c) (L : EReal) * (v c : EReal))
      = ((∑ c, E c * (1 / L) * v c : ℝ) : EReal) := by
    rw [coe_sum]
    exact Finset.sum_congr rfl fun c _ => by rw [hE c, Ideal.div_coe hL, EReal.coe_mul, EReal.coe_mul]
  rw [h1, h2, ← EReal.coe_mul, Finset.sum_mul]
  congr 1
  exact Finset.sum_congr rfl fun c _ => by ring

end Cert.LibSoftmaxRow

end
-- ==== Proof.AttnRow.lean ====
/-
  One row of scaled-dot-product attention, on the extended reals.

  A row of logits `x : Fin n → EReal` gives its maximum `rowMax x` (taken from −∞), the shifted exponentials
  `rowExp x c = exp (x c − rowMax x)` and their sum `rowSum x`.  Two spellings of the softmax row and of the
  attention output built on them are compared:
  • multiply by the reciprocal of the sum, and scale the weighted sum of the value rows afterwards
    (`attnK`, `outK`);
  • divide each exponential by the sum, and take the weighted sum of the value rows with the quotients
    (`attnR`, `outR`).
  (These notions and the law below are the softmax-row module's, `Cert.LibSoftmaxRow`, re-exported here.)
  When the logits and the values are real numbers the maximum is a real number, every exponential is a positive
  real, so is their sum, and the two spellings agree: division by a nonzero real is multiplication by its
  reciprocal, and a real factor moves across a finite sum.

  The logits themselves come in two spellings as well: the score times 1/8 with −10⁹ added where the mask word is
  zero (`lgK`), and the score divided by √64 plus −10⁹ · (1 − mask) (`lgR`).  They agree when the mask word is 0 or 1,
  for every extended-real score.
-/
import proofs.«152861_j47175920779814_2_alg».proof.Proof.LibSoftmaxRow
import Idealize.ShloMosaic.PureOps.Ideal.Laws
import Idealize.ShloMosaic.Lib.ValueIdx

noncomputable section

namespace Cert.AttnRow

open Idealize.ShloMosaic

export Cert.LibSoftmaxRow (coe_sum c_one c_neginf rowMax rowExp rowSum rowMax_coe row_real attnK outK attnR outR
  attn_eq_of_real out_eq_of_real)

/-! ## The constants -/

theorem c_eighth : Ideal.ofBits .f32 0x3E000000#32 = ((1 / 8 : ℝ) : EReal) := by
  simp [Ideal.ofBits, Ideal.ieee, -EReal.coe_mul]; norm_num

theorem c_sixtyfour : Ideal.ofBits .f32 0x42800000#32 = ((64 : ℝ) : EReal) := by
  simp [Ideal.ofBits, Ideal.ieee, -EReal.coe_mul]; norm_num

theorem c_negbig : Ideal.ofBits .f32 0xCE6E6B28#32 = ((-1000000000 : ℝ) : EReal) := by
  simp [Ideal.ofBits, Ideal.ieee, -EReal.coe_mul]; norm_num

theorem sqrt_sixtyfour : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-! ## The logits, two spellings -/

/-- The score scaled by 1/8, with −10⁹ added where the mask word is zero. -/
def lgK (s : EReal) (w : BitVec 32) : EReal :=
  Scalar.select (IntOp.cmpi .eq w 0#32)
    (s * Ideal.ofBits .f32 0x3E000000#32 + Ideal.ofBits .f32 0xCE6E6B28#32) (s * Ideal.ofBits .f32 0x3E000000#32)

/-- The score divided by √64, plus −10⁹ · (1 − mask). -/
def lgR (s : EReal) (w : BitVec 32) : EReal :=
  Ideal.div s (Ideal.sqrt (Ideal.ofBits .f32 0x42800000#32))
    + Ideal.ofBits .f32 0xCE6E6B28#32 * (Ideal.ofBits .f32 0x3F800000#32 - ((w.toInt : ℝ) : EReal))

theorem one_sub_one : (1 : EReal) - ((1 : ℝ) : EReal) = 0 := by
  rw [← EReal.coe_one, ← EReal.coe_sub, sub_self, EReal.coe_zero]

/-- On a mask word that is 0 or 1 the two spellings of the logit agree, whatever the score. -/
theorem lg_eq (s : EReal) (w : BitVec 32) (hw : w = 0#32 ∨ w = 1#32) : lgK s w = lgR s w := by
  unfold lgK lgR
  rw [c_sixtyfour, sqrt_sixtyfour, Ideal.div_coe (by norm_num : (8 : ℝ) ≠ 0), c_eighth, c_one]
  rcases hw with rfl | rfl
  · rw [show IntOp.cmpi .eq (0#32) 0#32 = 1#1 from by decide, ValueIdx.select_one]
    rw [show (((0#32 : BitVec 32).toInt : ℝ) : EReal) = 0 from by norm_num, sub_zero, mul_one]
  · rw [show IntOp.cmpi .eq (1#32) 0#32 = 0#1 from by decide, ValueIdx.select_zero]
    rw [show (((1#32 : BitVec 32).toInt : ℝ) : EReal) = ((1 : ℝ) : EReal) from by norm_num, one_sub_one, mul_zero, add_zero]

/-- A real score gives a real logit. -/
theorem lgK_coe (s : ℝ) (w : BitVec 32) : ∃ r : ℝ, lgK (s : EReal) w = (r : EReal) := by
  unfold lgK Scalar.select
  rw [c_eighth, c_negbig]
  split
  · exact ⟨s * (1 / 8) + (-1000000000), by rw [EReal.coe_add, EReal.coe_mul]⟩
  · exact ⟨s * (1 / 8), by rw [EReal.coe_mul]⟩

/-! ## The score -/

variable {n dd : ℕ}

/-- The dot product of a query row and a key row. -/
def score (q k : Fin dd → EReal) : EReal := ∑ d, q d * k d

theorem score_coe (q k : Fin dd → ℝ) : score (fun d => (q d : EReal)) (fun d => (k d : EReal)) = ((∑ d, q d * k d : ℝ) : EReal) := by
  unfold score
  rw [coe_sum]
  exact Finset.sum_congr rfl fun d _ => (EReal.coe_mul _ _).symm

/-! ## A whole row: query, keys, values, mask -/

/-- Real entries, a mask of zeros and ones: the reciprocal spelling over the scaled-and-filled logits is the quotient
    spelling over the divided-and-shifted logits. -/
theorem attn_row_eq (hn : 0 < n) (q : Fin dd → EReal) (k : Fin n → Fin dd → EReal) (mw : Fin n → BitVec 32)
    (hq : ∀ d, ∃ r : ℝ, q d = (r : EReal)) (hk : ∀ c d, ∃ r : ℝ, k c d = (r : EReal))
    (hm : ∀ c, mw c = 0#32 ∨ mw c = 1#32) (c : Fin n) :
    attnK (fun c' => lgK (score q (k c')) (mw c')) c = attnR (fun c' => lgR (score q (k c')) (mw c')) c := by
  choose qr hqr using hq
  choose kr hkr using hk
  have hx : ∀ c', ∃ r : ℝ, lgK (score q (k c')) (mw c') = (r : EReal) := fun c' => by
    rw [show q = fun d => (qr d : EReal) from funext hqr, show k c' = fun d => (kr c' d : EReal) from funext (hkr c'), score_coe]
    exact lgK_coe _ _
  choose xr hxr using hx
  rw [show (fun c' => lgR (score q (k c')) (mw c')) = fun c' => lgK (score q (k c')) (mw c') from
    funext fun c' => (lg_eq _ _ (hm c')).symm]
  rw [show (fun c' => lgK (score q (k c')) (mw c')) = fun c' => (xr c' : EReal) from funext hxr]
  exact attn_eq_of_real hn xr c

theorem out_row_eq (hn : 0 < n) (q : Fin dd → EReal) (k : Fin n → Fin dd → EReal) (v : Fin n → EReal) (mw : Fin n → BitVec 32)
    (hq : ∀ d, ∃ r : ℝ, q d = (r : EReal)) (hk : ∀ c d, ∃ r : ℝ, k c d = (r : EReal)) (hv : ∀ c, ∃ r : ℝ, v c = (r : EReal))
    (hm : ∀ c, mw c = 0#32 ∨ mw c = 1#32) :
    outK (fun c' => lgK (score q (k c')) (mw c')) v = outR (fun c' => lgR (score q (k c')) (mw c')) v := by
  choose qr hqr using hq
  choose kr hkr using hk
  choose vr hvr using hv
  have hx : ∀ c', ∃ r : ℝ, lgK (score q (k c')) (mw c') = (r : EReal) := fun c' => by
    rw [show q = fun d => (qr d : EReal) from funext hqr, show k c' = fun d => (kr c' d : EReal) from funext (hkr c'), score_coe]
    exact lgK_coe _ _
  choose xr hxr using hx
  rw [show (fun c' => lgR (score q (k c')) (mw c')) = fun c' => lgK (score q (k c')) (mw c') from
    funext fun c' => (lg_eq _ _ (hm c')).symm]
  rw [show (fun c' => lgK (score q (k c')) (mw c')) = fun c' => (xr c' : EReal) from funext hxr,
    show v = fun c => (vr c : EReal) from funext hvr]
  exact out_eq_of_real hn xr vr

end Cert.AttnRow

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.KernelRow.lean ====
/-
  The kernel body's arithmetic at one block, read index by index on the extended reals.

  A grid point holds a block of 256 query rows `P0` (as [1, 256, 64]), the batch's 2048 key rows `P1` and value rows
  `Pv` (as [1, 2048, 64]) and the 256 × 2048 block of mask words `P2`.  Row `p` of the block has the logits
  `xrow P0 P1 P2 p c` = the dot product of query row `p` with key row `c`, times 1/8, with −10⁹ added where the mask word
  is zero.  The body's exponentials at (p, c) are that row's shifted exponentials, its lane sum at `p` their sum, the
  block it stores to the attention output the exponentials times the reciprocal of the sum, and the block it stores to
  the result the value rows weighted by the exponentials, scaled by the reciprocal of the sum afterwards.
-/
import proofs.«152861_j47175920779814_2_alg».proof.Proof.Gen.KernelIdeal.Value
import proofs.«152861_j47175920779814_2_alg».proof.Proof.AttnRow
import proofs.«152861_j47175920779814_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.AttnRow Cert.LibKeepdims

abbrev DQK := dot_S256x64_S2048x64_S256x2048_1_1_0_0_n_n
abbrev DPV := dot_S256x2048_S2048x64_S256x64_1_0_0_1_n_n

/-! ## The two matrix products at an index -/

theorem qk_lhs0 (i : S256x2048.Idx) (q : DQK.contr.Idx) : (DQK.lhsIdx i q 0).val = (i 0).val := by
  unfold DotDims.lhsIdx
  rw [dif_neg (show ¬(0 : Fin S256x64.rank) ∈ DQK.lhsBatch by decide), dif_pos (show (0 : Fin S256x64.rank) ∈ DQK.lhsNonContracting by decide)]
  rfl
theorem qk_lhs1 (i : S256x2048.Idx) (q : DQK.contr.Idx) : (DQK.lhsIdx i q 1).val = (q ⟨0, by decide⟩).val :=
  DQK.lhsIdx_val_of_single rfl i q
theorem qk_rhs0 (i : S256x2048.Idx) (q : DQK.contr.Idx) : (DQK.rhsIdx i q 0).val = (i 1).val := by
  unfold DotDims.rhsIdx
  rw [dif_neg (show ¬(0 : Fin S2048x64.rank) ∈ DQK.rhsBatch by decide), dif_pos (show (0 : Fin S2048x64.rank) ∈ DQK.rhsNonContracting by decide)]
  rfl
theorem qk_rhs1 (i : S256x2048.Idx) (q : DQK.contr.Idx) : (DQK.rhsIdx i q 1).val = (q ⟨0, by decide⟩).val :=
  DQK.rhsIdx_val_of_single rfl i q

/-- Queries times keys, contracting the depth axis of both: entry (p, c) is the dot product of row p and row c. -/
theorem qk_apply (A : FVec Ideal S256x64 .bf16) (Bm : FVec Ideal S2048x64 .bf16) (p : Fin 256) (c : Fin 2048) :
    matmul DQK none A Bm (constant S256x2048 .f32 0x00000000#32) (ix2 p c) = ∑ d : Fin 64, A (ix2 p d) * Bm (ix2 c d) := by
  refine (Ideal.matmul_constant_zero_apply DQK none A Bm (ix2 p c)).trans ?_
  rw [← Equiv.sum_comp (contrEquiv1 DQK 64 rfl rfl).symm]
  refine Finset.sum_congr rfl fun k _ => ?_
  have hk := contrEquiv1_symm_val DQK 64 rfl rfl k
  have el : DQK.lhsIdx (ix2 p c) ((contrEquiv1 DQK 64 rfl rfl).symm k) = ix2 p k := funext fun a => Fin.ext (by
    match a with
    | ⟨0, _⟩ => exact qk_lhs0 _ _
    | ⟨1, _⟩ => exact (qk_lhs1 _ _).trans hk)
  have er : DQK.rhsIdx (ix2 p c) ((contrEquiv1 DQK 64 rfl rfl).symm k) = ix2 c k := funext fun a => Fin.ext (by
    match a with
    | ⟨0, _⟩ => exact qk_rhs0 _ _
    | ⟨1, _⟩ => exact (qk_rhs1 _ _).trans hk)
  rw [el, er]

theorem pv_lhs0 (i : S256x64.Idx) (q : DPV.contr.Idx) : (DPV.lhsIdx i q 0).val = (i 0).val := by
  unfold DotDims.lhsIdx
  rw [dif_neg (show ¬(0 : Fin S256x2048.rank) ∈ DPV.lhsBatch by decide), dif_pos (show (0 : Fin S256x2048.rank) ∈ DPV.lhsNonContracting by decide)]
  rfl
theorem pv_lhs1 (i : S256x64.Idx) (q : DPV.contr.Idx) : (DPV.lhsIdx i q 1).val = (q ⟨0, by decide⟩).val :=
  DPV.lhsIdx_val_of_single rfl i q
theorem pv_rhs0 (i : S256x64.Idx) (q : DPV.contr.Idx) : (DPV.rhsIdx i q 0).val = (q ⟨0, by decide⟩).val :=
  DPV.rhsIdx_val_of_single rfl i q
theorem pv_rhs1 (i : S256x64.Idx) (q : DPV.contr.Idx) : (DPV.rhsIdx i q 1).val = (i 1).val := by
  unfold DotDims.rhsIdx
  rw [dif_neg (show ¬(1 : Fin S2048x64.rank) ∈ DPV.rhsBatch by decide), dif_pos (show (1 : Fin S2048x64.rank) ∈ DPV.rhsNonContracting by decide)]
  rfl

/-- Weights times values, contracting the key axis: entry (p, d) sums the weights of row p against column d. -/
theorem pv_apply (E : FVec Ideal S256x2048 .bf16) (Vm : FVec Ideal S2048x64 .bf16) (p : Fin 256) (d : Fin 64) :
    matmul DPV none E Vm (constant S256x64 .f32 0x00000000#32) (ix2 p d) = ∑ c : Fin 2048, E (ix2 p c) * Vm (ix2 c d) := by
  refine (Ideal.matmul_constant_zero_apply DPV none E Vm (ix2 p d)).trans ?_
  rw [← Equiv.sum_comp (contrEquiv1 DPV 2048 rfl rfl).symm]
  refine Finset.sum_congr rfl fun k _ => ?_
  have hk := contrEquiv1_symm_val DPV 2048 rfl rfl k
  have el : DPV.lhsIdx (ix2 p d) ((contrEquiv1 DPV 2048 rfl rfl).symm k) = ix2 p k := funext fun a => Fin.ext (by
    match a with
    | ⟨0, _⟩ => exact pv_lhs0 _ _
    | ⟨1, _⟩ => exact (pv_lhs1 _ _).trans hk)
  have er : DPV.rhsIdx (ix2 p d) ((contrEquiv1 DPV 2048 rfl rfl).symm k) = ix2 k d := funext fun a => Fin.ext (by
    match a with
    | ⟨0, _⟩ => exact (pv_rhs0 _ _).trans hk
    | ⟨1, _⟩ => exact pv_rhs1 _ _)
  rw [el, er]

/-! ## The logits of a block -/

/-- Row `p` of the block's logits. -/
def xrow (P0 : Vec Ideal S1x256x64 .f32) (P1 : Vec Ideal S1x2048x64 .f32) (P2 : Vec Ideal S1x256x2048 .i32) (p : Fin 256) :
    Fin 2048 → EReal :=
  fun c => lgK (score (fun d => P0 (ix3 (0 : Fin 1) p d)) (fun d => P1 (ix3 (0 : Fin 1) c d))) (P2 (ix3 (0 : Fin 1) p c))

/-- The scores times 1/8. -/
def scaled (P0 : Vec Ideal S1x256x64 .f32) (P1 : Vec Ideal S1x2048x64 .f32) : FVec Ideal S256x2048 .f32 :=
  mulf (matmul DQK none (truncf .bf16 (shapeCast S256x64 P0 shapeCasts_S1x256x64_S256x64) bitsLt_bf16_f32)
      (truncf .bf16 (shapeCast S2048x64 P1 shapeCasts_S1x2048x64_S2048x64) bitsLt_bf16_f32) (constant S256x2048 .f32 0x00000000#32))
    (broadcast S256x2048 (Scalar.ofBits .f32 0x3E000000#32))

/-- The scaled scores with −10⁹ added where the mask word is zero. -/
def masked (P0 : Vec Ideal S1x256x64 .f32) (P1 : Vec Ideal S1x2048x64 .f32) (P2 : Vec Ideal S1x256x2048 .i32) : FVec Ideal S256x2048 .f32 :=
  select (cmpi .eq (shapeCast S256x2048 P2 shapeCasts_S1x256x2048_S256x2048) (broadcast S256x2048 0#32))
    (addf (scaled P0 P1) (broadcast S256x2048 (Scalar.ofBits .f32 0xCE6E6B28#32))) (scaled P0 P1)

theorem scaled_apply (P0 : Vec Ideal S1x256x64 .f32) (P1 : Vec Ideal S1x2048x64 .f32) (p : Fin 256) (c : Fin 2048) :
    scaled P0 P1 (ix2 p c)
      = score (fun d => P0 (ix3 (0 : Fin 1) p d)) (fun d => P1 (ix3 (0 : Fin 1) c d)) * Ideal.ofBits .f32 0x3E000000#32 := by
  show (matmul DQK none (truncf .bf16 (shapeCast S256x64 P0 shapeCasts_S1x256x64_S256x64) bitsLt_bf16_f32)
      (truncf .bf16 (shapeCast S2048x64 P1 shapeCasts_S1x2048x64_S2048x64) bitsLt_bf16_f32) (constant S256x2048 .f32 0x00000000#32)) (ix2 p c)
      * Ideal.ofBits .f32 0x3E000000#32 = _
  rw [qk_apply]
  unfold score
  refine congrArg (· * Ideal.ofBits .f32 0x3E000000#32) (Finset.sum_congr rfl fun d _ => ?_)
  show (shapeCast S256x64 P0 shapeCasts_S1x256x64_S256x64) (ix2 p d) * (shapeCast S2048x64 P1 shapeCasts_S1x2048x64_S2048x64) (ix2 c d) = _
  rw [shapeCast_1ab_ab_apply P0 _ p d, shapeCast_1ab_ab_apply P1 _ c d]

theorem masked_apply (P0 : Vec Ideal S1x256x64 .f32) (P1 : Vec Ideal S1x2048x64 .f32) (P2 : Vec Ideal S1x256x2048 .i32) (p : Fin 256) (c : Fin 2048) :
    masked P0 P1 P2 (ix2 p c) = xrow P0 P1 P2 p c := by
  show Scalar.select (IntOp.cmpi .eq ((shapeCast S256x2048 P2 shapeCasts_S1x256x2048_S256x2048) (ix2 p c)) 0#32)
      (scaled P0 P1 (ix2 p c) + Ideal.ofBits .f32 0xCE6E6B28#32) (scaled P0 P1 (ix2 p c)) = _
  rw [shapeCast_1ab_ab_apply P2 _ p c, scaled_apply]
  rfl

/-! ## The row maximum, the shifted exponentials, the row sum -/

theorem rowmax_apply (X : FVec Ideal S256x2048 .f32) (p : Fin 256) :
    multiReduction .maximumf [1] S256 X 0xFF800000#32 reduces_S256x2048_S256 (.inl rfl) rfl (ix1 p) = rowMax (fun c => X (ix2 p c)) := by
  refine (Ideal.multiReduction_maximumf_single X 0xFF800000#32 reduces_S256x2048_S256 (.inl rfl) rfl (ix1 p)).trans ?_
  show Finset.univ.fold max (Ideal.ofBits .f32 0xFF800000#32) (fun k : Fin 2048 => X (reduces_S256x2048_S256.lift (ix1 p) k))
    = Finset.univ.fold max ⊥ (fun c => X (ix2 p c))
  rw [c_neginf]
  refine congrArg (Finset.univ.fold max ⊥) (funext fun k => congrArg X ?_)
  funext ax; apply Fin.ext
  match ax with
  | ⟨0, _⟩ => rfl
  | ⟨1, _⟩ => rfl

theorem expshift_apply (X : FVec Ideal S256x2048 .f32) (p : Fin 256) (c : Fin 2048) :
    (exp (subf X (broadcastTo S256x2048 (shapeCast S256x1 (multiReduction .maximumf [1] S256 X 0xFF800000#32 reduces_S256x2048_S256 (.inl rfl) rfl) shapeCasts_S256_S256x1) broadcasts_S256x1_S256x2048))) (ix2 p c)
      = rowExp (fun c' => X (ix2 p c')) c := by
  show Ideal.exp (X (ix2 p c) - (broadcastTo S256x2048 (shapeCast S256x1 (multiReduction .maximumf [1] S256 X 0xFF800000#32 reduces_S256x2048_S256 (.inl rfl) rfl) shapeCasts_S256_S256x1) broadcasts_S256x1_S256x2048) (ix2 p c)) = _
  rw [broadcastTo_a1_ab_apply _ broadcasts_S256x1_S256x2048 p c (0 : Fin 1), shapeCast_a_a1_apply _ shapeCasts_S256_S256x1 p (0 : Fin 1), rowmax_apply]
  rfl

/-- The body's exponentials are the masked logits', row by row. -/
theorem pay3_eq (P0 : Vec Ideal S1x256x64 .f32) (P1 : Vec Ideal S1x2048x64 .f32) (P2 : Vec Ideal S1x256x2048 .i32) :
    k0_pay3 (F := Ideal) P0 P1 P2 = exp (subf (masked P0 P1 P2) (broadcastTo S256x2048 (shapeCast S256x1 (multiReduction .maximumf [1] S256 (masked P0 P1 P2) 0xFF800000#32 reduces_S256x2048_S256 (.inl rfl) rfl) shapeCasts_S256_S256x1) broadcasts_S256x1_S256x2048)) := rfl

theorem pay3_apply (P0 : Vec Ideal S1x256x64 .f32) (P1 : Vec Ideal S1x2048x64 .f32) (P2 : Vec Ideal S1x256x2048 .i32) (p : Fin 256) (c : Fin 2048) :
    k0_pay3 (F := Ideal) P0 P1 P2 (ix2 p c) = rowExp (xrow P0 P1 P2 p) c := by
  rw [pay3_eq, expshift_apply]
  exact congrArg (fun x => rowExp x c) (funext fun c' => masked_apply P0 P1 P2 p c')

theorem rowsum_apply (P0 : Vec Ideal S1x256x64 .f32) (P1 : Vec Ideal S1x2048x64 .f32) (P2 : Vec Ideal S1x256x2048 .i32) (p : Fin 256) :
    multiReduction .add [1] S256 (k0_pay3 (F := Ideal) P0 P1 P2) 0x00000000#32 reduces_S256x2048_S256 (.inl rfl) rfl (ix1 p)
      = rowSum (xrow P0 P1 P2 p) := by
  refine (multiReduction_add_lastAxis_apply (k0_pay3 (F := Ideal) P0 P1 P2) 0x00000000#32 reduces_S256x2048_S256 (.inl rfl) rfl p).trans ?_
  unfold rowSum
  exact Finset.sum_congr rfl fun c _ => pay3_apply P0 P1 P2 p c

/-! ## The two stored blocks -/

/-- The block stored to the attention output: at (p, c) the exponential times the reciprocal of the row's sum. -/
theorem attn_blk (P0 : Vec Ideal S1x256x64 .f32) (P1 : Vec Ideal S1x2048x64 .f32) (P2 : Vec Ideal S1x256x2048 .i32)
    (u : Fin 1) (p : Fin 256) (c : Fin 2048) :
    Cert.KernelIdeal.Value.E5 (F := Ideal) P0 P1 P2 (ix3 u p c) = attnK (xrow P0 P1 P2 p) c := by
  have e0 : Cert.KernelIdeal.Value.ix5_0 (ix3 u p c) = ix2 p c := by
    funext a; match a with
    | ⟨0, _⟩ => rfl
    | ⟨1, _⟩ => rfl
  have e1 : Cert.KernelIdeal.Value.ix5_1 (ix3 u p c) = ix1 p := by
    funext a; match a with
    | ⟨0, _⟩ => rfl
  show (k0_pay3 (F := Ideal) P0 P1 P2) (Cert.KernelIdeal.Value.ix5_0 (ix3 u p c))
      * Ideal.div (Ideal.ofBits .f32 0x3F800000#32) ((multiReduction .add [1] S256 (k0_pay3 (F := Ideal) P0 P1 P2) 0x00000000#32 reduces_S256x2048_S256 (.inl rfl) rfl) (Cert.KernelIdeal.Value.ix5_1 (ix3 u p c))) = _
  rw [e0, e1, pay3_apply, rowsum_apply]
  rfl

/-- The reciprocal column: at row p, one over the row's sum. -/
theorem pay4_apply (P0 : Vec Ideal S1x256x64 .f32) (P1 : Vec Ideal S1x2048x64 .f32) (P2 : Vec Ideal S1x256x2048 .i32) (p : Fin 256) (u : Fin 1) :
    k0_pay4 (F := Ideal) P0 P1 P2 (ix2 p u) = Ideal.div (Ideal.ofBits .f32 0x3F800000#32) (rowSum (xrow P0 P1 P2 p)) := by
  show Ideal.div (Ideal.ofBits .f32 0x3F800000#32) ((shapeCast S256x1 (multiReduction .add [1] S256 (k0_pay3 (F := Ideal) P0 P1 P2) 0x00000000#32 reduces_S256x2048_S256 (.inl rfl) rfl) shapeCasts_S256_S256x1) (ix2 p u)) = _
  rw [shapeCast_a_a1_apply _ shapeCasts_S256_S256x1 p u, rowsum_apply]

/-- The block stored to the result: at (p, d) the value rows' column d weighted by row p's exponentials, times the
    reciprocal of the row's sum. -/
theorem out_blk (P0 : Vec Ideal S1x256x64 .f32) (P1 Pv : Vec Ideal S1x2048x64 .f32) (P2 : Vec Ideal S1x256x2048 .i32)
    (u : Fin 1) (p : Fin 256) (d : Fin 64) :
    k0_pay1 (F := Ideal) (k0_pay2 Pv) (k0_pay4 P0 P1 P2) (k0_pay6 P0 P1 P2) (constant S256x64 .f32 0x00000000#32) (ix3 u p d)
      = outK (xrow P0 P1 P2 p) (fun c => Pv (ix3 (0 : Fin 1) c d)) := by
  show (shapeCast S1x256x64 (mulf (matmul DPV none (k0_pay6 (F := Ideal) P0 P1 P2) (k0_pay2 Pv) (constant S256x64 .f32 0x00000000#32))
      (broadcastTo S256x64 (k0_pay4 (F := Ideal) P0 P1 P2) broadcasts_S256x1_S256x64)) shapeCasts_S256x64_S1x256x64) (ix3 u p d) = _
  rw [shapeCast_ab_1ab_apply _ shapeCasts_S256x64_S1x256x64 u p d]
  show (matmul DPV none (k0_pay6 (F := Ideal) P0 P1 P2) (k0_pay2 Pv) (constant S256x64 .f32 0x00000000#32)) (ix2 p d)
      * (broadcastTo S256x64 (k0_pay4 (F := Ideal) P0 P1 P2) broadcasts_S256x1_S256x64) (ix2 p d) = _
  rw [pv_apply, broadcastTo_a1_ab_apply _ broadcasts_S256x1_S256x64 p d (0 : Fin 1), pay4_apply]
  unfold outK
  refine congrArg (· * Ideal.div (Ideal.ofBits .f32 0x3F800000#32) (rowSum (xrow P0 P1 P2 p))) (Finset.sum_congr rfl fun c _ => ?_)
  show k0_pay3 (F := Ideal) P0 P1 P2 (ix2 p c) * (shapeCast S2048x64 Pv shapeCasts_S1x2048x64_S2048x64) (ix2 c d) = _
  rw [pay3_apply, shapeCast_1ab_ab_apply Pv _ c d]

end Cert.KernelIdeal.Row

end
-- ==== Proof.AttnWhole.lean ====
/-
  Scaled-dot-product attention over whole arrays, in the reciprocal spelling.

  For queries `Q`, keys `K`, values `V` (each [16, 2048, 64]) and mask words `M` ([16, 2048, 2048]): row `r` of batch `b`
  has the logits `xrowG Q K M b r` (score times 1/8, −10⁹ added where the mask word is zero); the attention output at
  (b, r, c) is that row's exponential at `c` times the reciprocal of the row's sum, and the result at (b, r, d) is the
  value rows' column `d` weighted by the row's exponentials, times that reciprocal.
-/
import proofs.«152861_j47175920779814_2_alg».proof.Proof.AttnRow
import Idealize.ShloMosaic.Lib.ValueIdx

noncomputable section

namespace Cert.AttnWhole

open Idealize.ShloMosaic Idealize.ShloMosaic.ValueIdx Cert.AttnRow

abbrev SQ : Shape := ⟨3, ![16, 2048, 64]⟩
abbrev SM : Shape := ⟨3, ![16, 2048, 2048]⟩

/-- Row `r` of batch `b`'s logits. -/
def xrowG (Q K : SQ.Idx → EReal) (M : SM.Idx → BitVec 32) (b : Fin 16) (r : Fin 2048) : Fin 2048 → EReal :=
  fun c => lgK (score (fun d => Q (ix3 b r d)) (fun d => K (ix3 b c d))) (M (ix3 b r c))

/-- The attention weights. -/
def GAttn (Q K : SQ.Idx → EReal) (M : SM.Idx → BitVec 32) : SM.Idx → EReal :=
  fun i => attnK (xrowG Q K M ⟨(i 0).val, (i 0).isLt⟩ ⟨(i 1).val, (i 1).isLt⟩) ⟨(i 2).val, (i 2).isLt⟩

/-- The attention result. -/
def GOut (Q K V : SQ.Idx → EReal) (M : SM.Idx → BitVec 32) : SQ.Idx → EReal :=
  fun i => outK (xrowG Q K M ⟨(i 0).val, (i 0).isLt⟩ ⟨(i 1).val, (i 1).isLt⟩)
    (fun c => V (ix3 (⟨(i 0).val, (i 0).isLt⟩ : Fin 16) c (⟨(i 2).val, (i 2).isLt⟩ : Fin 64)))

theorem GAttn_apply (Q K : SQ.Idx → EReal) (M : SM.Idx → BitVec 32) (b : Fin 16) (r c : Fin 2048) :
    GAttn Q K M (ix3 b r c) = attnK (xrowG Q K M b r) c := rfl

theorem GOut_apply (Q K V : SQ.Idx → EReal) (M : SM.Idx → BitVec 32) (b : Fin 16) (r : Fin 2048) (d : Fin 64) :
    GOut Q K V M (ix3 b r d) = outK (xrowG Q K M b r) (fun c => V (ix3 b c d)) := rfl

end Cert.AttnWhole

end
-- ==== Proof.KernelBlocks.lean ====
/-
  From blocks to arrays: what the kernel leaves in its two outputs.

  Grid point `t` of the 16 × 8 grid works on batch `t / 8` and on query rows `(t % 8) · 256 … + 255`: its query, mask and
  output blocks sit at block index (t / 8, t % 8, 0), its key and value blocks at (t / 8, 0, 0).  So the logits of the
  block's row `p` are the whole arrays' logits of row `(t % 8) · 256 + p` of batch `t / 8`, and what the point writes back
  is its block of the whole-array attention weights and result.  The blocks of the 128 points tile both outputs, so after
  the run each output holds the whole-array function.
-/
import proofs.«152861_j47175920779814_2_alg».proof.Proof.Gen.KernelIdeal.Value
import proofs.«152861_j47175920779814_2_alg».proof.Proof.KernelRow
import proofs.«152861_j47175920779814_2_alg».proof.Proof.AttnWhole
import Idealize.ShloMosaic.Lib.Pipeline.Value

set_option maxRecDepth 16384

noncomputable section

namespace Cert.KernelIdeal.Blocks

open Cert.KernelIdeal Cert.KernelIdeal.Gen Cert.KernelIdeal.Value Cert.KernelIdeal.Row
open Idealize.ShloMosaic Idealize.ShloMosaic.TcCoe Idealize.SL.Sem Idealize.ShloMosaic.ValueIdx
open Idealize.ShloMosaic.Pipeline (Dat)
open Cert.AttnRow Cert.AttnWhole

variable (m : (ℓ : Loc nD τ sig) → Buf (Elt Ideal) ℓ) (ρ : Dev nD → PrngReg)

theorem hz3 : (![0, 0, 0] : Fin 3 → Nat) = fun _ => 0 := funext fun a => by fin_cases a <;> rfl

/-! ## What the body leaves in each output buffer, at an index -/

theorem out5_apply (x0 : Vec Ideal S1x256x64 .f32) (x1 x2 : Vec Ideal S1x2048x64 .f32) (x3 : Vec Ideal S1x256x2048 .i32)
    (u : Fin 1) (p : Fin 256) (cc : Fin 2048) :
    out0_5 (F := Ideal) x0 x1 x2 x3 (ix3 u p cc) = attnK (xrow x0 x1 x3 p) cc := by
  unfold out0_5
  rw [canon5_eq]
  simp only [View.ld_unit_zero (S := S1x256x64) hz3, View.ld_unit_zero (S := S1x2048x64) hz3, View.ld_unit_zero (S := S1x256x2048) hz3]
  exact attn_blk x0 x1 x3 u p cc

theorem out4_apply (x0 : Vec Ideal S1x256x64 .f32) (x1 x2 : Vec Ideal S1x2048x64 .f32) (x3 : Vec Ideal S1x256x2048 .i32)
    (u : Fin 1) (p : Fin 256) (d : Fin 64) :
    out0_4 (F := Ideal) x0 x1 x2 x3 (ix3 u p d) = outK (xrow x0 x1 x3 p) (fun cc => x2 (ix3 (0 : Fin 1) cc d)) := by
  unfold out0_4
  rw [View.canon_unit_zero hz3]
  simp only [View.ld_unit_zero (S := S1x256x64) hz3, View.ld_unit_zero (S := S1x2048x64) hz3, View.ld_unit_zero (S := S1x256x2048) hz3]
  exact out_blk x0 x1 x2 x3 u p d

/-! ## The index maps over the grid -/

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)

/-- The batch a grid point works on. -/
def bOf (t : Fin cfg0.N) : Fin 16 := ⟨t.val / 8, by have hN : cfg0.N = 128 := N_0; have := t.isLt; omega⟩

/-- The array row of the point's block row `p`. -/
def rOf (t : Fin cfg0.N) (p : Fin 256) : Fin 2048 := ⟨t.val % 8 * 256 + p.val, by have := p.isLt; omega⟩

/-! ## Where a block's element sits in its array -/

theorem emb0 (t : Fin cfg0.N) (u : Fin 1) (p : Fin 256) (d : Fin 64) :
    ((cfg0.win 0).blk t).view.emb (ix3 u p d) = ix3 (bOf t) (rOf t p) d := by
  obtain ⟨e0, e1, e2⟩ := idx0 t
  funext a; apply Fin.ext
  match a with
  | ⟨0, _⟩ => show win0_0.index t (0 : Fin 3) * 1 + 1 * u.val = t.val / 8; have := u.isLt; omega
  | ⟨1, _⟩ => show win0_0.index t (1 : Fin 3) * 256 + 1 * p.val = t.val % 8 * 256 + p.val; omega
  | ⟨2, _⟩ => show win0_0.index t (2 : Fin 3) * 64 + 1 * d.val = d.val; omega

theorem emb1 (t : Fin cfg0.N) (u : Fin 1) (cc : Fin 2048) (d : Fin 64) :
    ((cfg0.win 1).blk t).view.emb (ix3 u cc d) = ix3 (bOf t) cc d := by
  obtain ⟨e0, e1, e2⟩ := idx1 t
  funext a; apply Fin.ext
  match a with
  | ⟨0, _⟩ => show win0_1.index t (0 : Fin 3) * 1 + 1 * u.val = t.val / 8; have := u.isLt; omega
  | ⟨1, _⟩ => show win0_1.index t (1 : Fin 3) * 2048 + 1 * cc.val = cc.val; omega
  | ⟨2, _⟩ => show win0_1.index t (2 : Fin 3) * 64 + 1 * d.val = d.val; omega

theorem emb2 (t : Fin cfg0.N) (u : Fin 1) (cc : Fin 2048) (d : Fin 64) :
    ((cfg0.win 2).blk t).view.emb (ix3 u cc d) = ix3 (bOf t) cc d := by
  obtain ⟨e0, e1, e2⟩ := idx2 t
  funext a; apply Fin.ext
  match a with
  | ⟨0, _⟩ => show win0_2.index t (0 : Fin 3) * 1 + 1 * u.val = t.val / 8; have := u.isLt; omega
  | ⟨1, _⟩ => show win0_2.index t (1 : Fin 3) * 2048 + 1 * cc.val = cc.val; omega
  | ⟨2, _⟩ => show win0_2.index t (2 : Fin 3) * 64 + 1 * d.val = d.val; omega

theorem emb3 (t : Fin cfg0.N) (u : Fin 1) (p : Fin 256) (cc : Fin 2048) :
    ((cfg0.win 3).blk t).view.emb (ix3 u p cc) = ix3 (bOf t) (rOf t p) cc := by
  obtain ⟨e0, e1, e2⟩ := idx3 t
  funext a; apply Fin.ext
  match a with
  | ⟨0, _⟩ => show win0_3.index t (0 : Fin 3) * 1 + 1 * u.val = t.val / 8; have := u.isLt; omega
  | ⟨1, _⟩ => show win0_3.index t (1 : Fin 3) * 256 + 1 * p.val = t.val % 8 * 256 + p.val; omega
  | ⟨2, _⟩ => show win0_3.index t (2 : Fin 3) * 2048 + 1 * cc.val = cc.val; omega

theorem emb4 (t : Fin cfg0.N) (u : Fin 1) (p : Fin 256) (d : Fin 64) :
    ((cfg0.win 4).blk t).view.emb (ix3 u p d) = ix3 (bOf t) (rOf t p) d := by
  obtain ⟨e0, e1, e2⟩ := idx4 t
  funext a; apply Fin.ext
  match a with
  | ⟨0, _⟩ => show win0_4.index t (0 : Fin 3) * 1 + 1 * u.val = t.val / 8; have := u.isLt; omega
  | ⟨1, _⟩ => show win0_4.index t (1 : Fin 3) * 256 + 1 * p.val = t.val % 8 * 256 + p.val; omega
  | ⟨2, _⟩ => show win0_4.index t (2 : Fin 3) * 64 + 1 * d.val = d.val; omega

theorem emb5 (t : Fin cfg0.N) (u : Fin 1) (p : Fin 256) (cc : Fin 2048) :
    ((cfg0.win 5).blk t).view.emb (ix3 u p cc) = ix3 (bOf t) (rOf t p) cc := by
  obtain ⟨e0, e1, e2⟩ := idx5 t
  funext a; apply Fin.ext
  match a with
  | ⟨0, _⟩ => show win0_5.index t (0 : Fin 3) * 1 + 1 * u.val = t.val / 8; have := u.isLt; omega
  | ⟨1, _⟩ => show win0_5.index t (1 : Fin 3) * 256 + 1 * p.val = t.val % 8 * 256 + p.val; omega
  | ⟨2, _⟩ => show win0_5.index t (2 : Fin 3) * 2048 + 1 * cc.val = cc.val; omega

/-! ## The input blocks as pieces of the arrays -/

theorem q_blk (c : Dev nD) (t : Fin cfg0.N) (p : Fin 256) (d : Fin 64) :
    iblk m c 0 t (ix3 (0 : Fin 1) p d) = V m c main_arg0 (ix3 (bOf t) (rOf t p) d) := by
  show V m c main_arg0 (((cfg0.win 0).blk t).view.emb (ix3 (0 : Fin 1) p d)) = _
  rw [emb0]

theorem k_blk (c : Dev nD) (t : Fin cfg0.N) (cc : Fin 2048) (d : Fin 64) :
    iblk m c 1 t (ix3 (0 : Fin 1) cc d) = V m c main_arg1 (ix3 (bOf t) cc d) := by
  show V m c main_arg1 (((cfg0.win 1).blk t).view.emb (ix3 (0 : Fin 1) cc d)) = _
  rw [emb1]

theorem v_blk (c : Dev nD) (t : Fin cfg0.N) (cc : Fin 2048) (d : Fin 64) :
    iblk m c 2 t (ix3 (0 : Fin 1) cc d) = V m c main_arg2 (ix3 (bOf t) cc d) := by
  show V m c main_arg2 (((cfg0.win 2).blk t).view.emb (ix3 (0 : Fin 1) cc d)) = _
  rw [emb2]

theorem m_blk (c : Dev nD) (t : Fin cfg0.N) (p : Fin 256) (cc : Fin 2048) :
    iblk m c 3 t (ix3 (0 : Fin 1) p cc) = V m c main_arg3 (ix3 (bOf t) (rOf t p) cc) := by
  show V m c main_arg3 (((cfg0.win 3).blk t).view.emb (ix3 (0 : Fin 1) p cc)) = _
  rw [emb3]

/-- Row `p` of the block's logits is row `rOf t p` of batch `bOf t`'s. -/
theorem xrow_blk (c : Dev nD) (t : Fin cfg0.N) (p : Fin 256) :
    xrow (iblk m c 0 t) (iblk m c 1 t) (iblk m c 3 t) p
      = xrowG (V m c main_arg0) (V m c main_arg1) (V m c main_arg3) (bOf t) (rOf t p) := by
  funext cc
  show lgK (score (fun d => iblk m c 0 t (ix3 (0 : Fin 1) p d)) (fun d => iblk m c 1 t (ix3 (0 : Fin 1) cc d))) (iblk m c 3 t (ix3 (0 : Fin 1) p cc))
    = lgK (score (fun d => V m c main_arg0 (ix3 (bOf t) (rOf t p) d)) (fun d => V m c main_arg1 (ix3 (bOf t) cc d))) (V m c main_arg3 (ix3 (bOf t) (rOf t p) cc))
  rw [m_blk m c t p cc, show (fun d => iblk m c 0 t (ix3 (0 : Fin 1) p d)) = fun d => V m c main_arg0 (ix3 (bOf t) (rOf t p) d) from funext fun d => q_blk m c t p d,
    show (fun d => iblk m c 1 t (ix3 (0 : Fin 1) cc d)) = fun d => V m c main_arg1 (ix3 (bOf t) cc d) from funext fun d => k_blk m c t cc d]

/-! ## What each point writes back -/

theorem flushed5_eq (c : Dev nD) (t : Fin cfg0.N) :
    (dats m 0 c).flushed 5 t = ((cfg0.win 5).blk t).view.read (Elt Ideal) (GAttn (V m c main_arg0) (V m c main_arg1) (V m c main_arg3)) := by
  rw [flushed5]
  refine funext fun (j : S1x256x2048.Idx) => ?_
  obtain ⟨u, p, cc, rfl⟩ : ∃ (u : Fin 1) (p : Fin 256) (cc : Fin 2048), j = ix3 u p cc := ⟨j 0, j 1, j 2, eq_ix3 j⟩
  show out0_5 (iblk m c 0 t) (iblk m c 1 t) (iblk m c 2 t) (iblk m c 3 t) (ix3 u p cc)
    = GAttn (V m c main_arg0) (V m c main_arg1) (V m c main_arg3) (((cfg0.win 5).blk t).view.emb (ix3 u p cc))
  rw [emb5 t u p cc, GAttn_apply]
  refine (out5_apply (iblk m c 0 t) (iblk m c 1 t) (iblk m c 2 t) (iblk m c 3 t) u p cc).trans ?_
  exact congrArg (fun x => attnK x cc) (xrow_blk m c t p)

theorem flushed4_eq (c : Dev nD) (t : Fin cfg0.N) :
    (dats m 0 c).flushed 4 t = ((cfg0.win 4).blk t).view.read (Elt Ideal) (GOut (V m c main_arg0) (V m c main_arg1) (V m c main_arg2) (V m c main_arg3)) := by
  rw [flushed4]
  refine funext fun (j : S1x256x64.Idx) => ?_
  obtain ⟨u, p, d, rfl⟩ : ∃ (u : Fin 1) (p : Fin 256) (d : Fin 64), j = ix3 u p d := ⟨j 0, j 1, j 2, eq_ix3 j⟩
  show out0_4 (iblk m c 0 t) (iblk m c 1 t) (iblk m c 2 t) (iblk m c 3 t) (ix3 u p d)
    = GOut (V m c main_arg0) (V m c main_arg1) (V m c main_arg2) (V m c main_arg3) (((cfg0.win 4).blk t).view.emb (ix3 u p d))
  rw [emb4 t u p d, GOut_apply]
  refine (out4_apply (iblk m c 0 t) (iblk m c 1 t) (iblk m c 2 t) (iblk m c 3 t) u p d).trans ?_
  rw [xrow_blk m c t p]
  exact congrArg (outK _) (funext fun cc => v_blk m c t cc d)

/-! ## The blocks tile the outputs -/

theorem mem_blk5 (t : Fin cfg0.N) (i : S16x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v0_1).slice (win0_5.rect t)).set ↔ _
  rw [View.set_slice_whole, Rect.mem_set_unit]
  exact Iff.rfl

theorem mem_blk4 (t : Fin cfg0.N) (i : S16x2048x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v0_0).slice (win0_4.rect t)).set ↔ _
  rw [View.set_slice_whole, Rect.mem_set_unit]
  exact Iff.rfl

theorem cover5 (i : S16x2048x2048.Idx) : ∃ t : Fin cfg0.N, (cfg0.win 5).flush t = true ∧ i ∈ ((cfg0.win 5).blk t).view.set := by
  have hN : cfg0.N = 128 := N_0
  have h0 : (i 0).val < 16 := (i 0).isLt
  have h1 : (i 1).val < 2048 := (i 1).isLt
  have h2 : (i 2).val < 2048 := (i 2).isLt
  obtain ⟨t, tv⟩ : ∃ t : Fin cfg0.N, t.val = (i 0).val * 8 + (i 1).val / 256 := ⟨⟨(i 0).val * 8 + (i 1).val / 256, by omega⟩, rfl⟩
  obtain ⟨e0, e1, e2⟩ := idx5 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

theorem cover4 (i : S16x2048x64.Idx) : ∃ t : Fin cfg0.N, (cfg0.win 4).flush t = true ∧ i ∈ ((cfg0.win 4).blk t).view.set := by
  have hN : cfg0.N = 128 := N_0
  have h0 : (i 0).val < 16 := (i 0).isLt
  have h1 : (i 1).val < 2048 := (i 1).isLt
  have h2 : (i 2).val < 64 := (i 2).isLt
  obtain ⟨t, tv⟩ : ∃ t : Fin cfg0.N, t.val = (i 0).val * 8 + (i 1).val / 256 := ⟨⟨(i 0).val * 8 + (i 1).val / 256, by omega⟩, rfl⟩
  obtain ⟨e0, e1, e2⟩ := idx4 t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-! ## The arrays after the run -/

theorem final5 (c : Dev nD) :
    (dats m 0 c).arrAt 5 cfg0.N = GAttn (V m c main_arg0) (V m c main_arg1) (V m c main_arg3) :=
  (dats m 0 c).arrAt_eq_of_cover 5 (GAttn (V m c main_arg0) (V m c main_arg1) (V m c main_arg3)) (fun t _ => flushed5_eq m c t) cover5

theorem final4 (c : Dev nD) :
    (dats m 0 c).arrAt 4 cfg0.N = GOut (V m c main_arg0) (V m c main_arg1) (V m c main_arg2) (V m c main_arg3) :=
  (dats m 0 c).arrAt_eq_of_cover 4 (GOut (V m c main_arg0) (V m c main_arg1) (V m c main_arg2) (V m c main_arg3)) (fun t _ => flushed4_eq m c t) cover4

/-- The kernel's run: the result and the attention weights end at the whole-array functions of the arguments, the
    arguments unchanged. -/
theorem run : θ_run defs (onTc (τ := τ) (main (F := Ideal))) ⟨m, fun _ => 0, ρ⟩ fun r => ∀ c : Dev nD,
      r.2.mem ((c : Thread nD τ).loc main_v0_0) = GOut (V m c main_arg0) (V m c main_arg1) (V m c main_arg2) (V m c main_arg3)
      ∧ r.2.mem ((c : Thread nD τ).loc main_v0_1) = GAttn (V m c main_arg0) (V m c main_arg1) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Blocks

end
-- ==== Proof.RefRow.lean ====
/-
  The reference's softmax attention, read index by index on the extended reals.

  For batch `b` and query row `r` the reference's logits are `xrowR … b r c` = the dot product of query row `r` with key
  row `c` divided by √64, plus −10⁹ · (1 − mask).  Its maximum over `c` (taken from −∞, then joined with −∞ once more)
  is the row's maximum, its exponentials the row's shifted exponentials, its sum their sum started from zero; the
  attention output at (b, r, c) is the exponential divided by that sum, and the result at (b, r, d) the value rows'
  column `d` weighted by those quotients.
-/
import proofs.«152861_j47175920779814_2_alg».proof.Proof.Gen.ReferenceIdeal.Read
import proofs.«152861_j47175920779814_2_alg».proof.Proof.AttnRow
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.AttnRow

variable (x0 x1 x2 : (⟨S16x2048x64, .f32⟩ : BufTy).Contents (Elt Ideal)) (x3 : (⟨S16x2048x2048, .i32⟩ : BufTy).Contents (Elt Ideal))

/-- Row `r` of batch `b`'s logits. -/
def xrowR (b : Fin 16) (r : Fin 2048) : Fin 2048 → EReal :=
  fun c => lgR (score (fun d => x0 (ix3 b r d)) (fun d => x1 (ix3 b c d))) (x3 (ix3 b r c))

theorem logits_apply (b : Fin 16) (r c : Fin 2048) : val_main_v9 (F := Ideal) x0 x1 x3 (ix3 b r c) = xrowR x0 x1 x3 b r c := by
  have el : ∀ k, lidx_main_v1 (ix3 b r c) k = ix3 b r k := fun k => funext fun a => by
    match a with
    | ⟨0, _⟩ => rfl
    | ⟨1, _⟩ => rfl
    | ⟨2, _⟩ => rfl
  have er : ∀ k, ridx_main_v1 (ix3 b r c) k = ix3 b c k := fun k => funext fun a => by
    match a with
    | ⟨0, _⟩ => rfl
    | ⟨1, _⟩ => rfl
    | ⟨2, _⟩ => rfl
  rw [val_main_v9_apply, val_main_v3_apply, val_main_v8_apply, val_main_v1_apply, val_main_v2_apply, val_main_v0_apply,
    val_main_cst_apply, val_main_v7_apply, val_main_cst_1_apply, val_main_v6_apply, val_main_v5_apply, val_main_cst_0_apply,
    val_main_v4_apply]
  simp only [el, er]
  rfl

/-- The host's maximum over the last axis, from −∞, at row (b, r). -/
theorem hostmax_apply (y : FVec Ideal S16x2048x2048 .f32) (b : Fin 16) (r : Fin 2048) :
    Host.reduce (FloatOps.maximumf (F := Ideal) (φ := .f32)) y (constant S_ .f32 0xFF800000#32) reducesTo_S16x2048x2048_S16x2048_d2 h_S_ (ix2 b r)
      = rowMax (fun c => y (ix3 b r c)) := by
  have hR : S16x2048x2048.Reduces [2] S16x2048 := by decide
  rw [Host.reduce_eq_fold_single (FloatOps.maximumf (F := Ideal) (φ := .f32)) y _ reducesTo_S16x2048x2048_S16x2048_d2 hR h_S_]
  show Finset.univ.fold max (Ideal.ofBits .f32 0xFF800000#32) (fun k : Fin 2048 => y (hR.lift (ix2 b r) k))
    = Finset.univ.fold max ⊥ (fun c => y (ix3 b r c))
  rw [c_neginf]
  refine congrArg (Finset.univ.fold max ⊥) (funext fun k => congrArg y ?_)
  funext a; apply Fin.ext
  match a with
  | ⟨0, _⟩ => rfl
  | ⟨1, _⟩ => rfl
  | ⟨2, _⟩ => rfl

theorem rowmax0_apply (b : Fin 16) (r : Fin 2048) : val_main_v10 (F := Ideal) x0 x1 x3 (ix2 b r) = rowMax (xrowR x0 x1 x3 b r) := by
  unfold val_main_v10
  refine (hostmax_apply (val_main_v9 (F := Ideal) x0 x1 x3) b r).trans ?_
  exact congrArg rowMax (funext fun c => logits_apply x0 x1 x3 b r c)

theorem rowmax_apply (b : Fin 16) (r : Fin 2048) : val_main_v12 (F := Ideal) x0 x1 x3 (ix2 b r) = rowMax (xrowR x0 x1 x3 b r) := by
  rw [val_main_v12_apply, val_main_v11_apply, val_main_cst_3_apply, rowmax0_apply]
  show max (Ideal.ofBits .f32 0xFF800000#32) _ = _
  rw [c_neginf]
  exact max_bot_left _

theorem exps_apply (b : Fin 16) (r c : Fin 2048) : val_main_v16 (F := Ideal) x0 x1 x3 (ix3 b r c) = rowExp (xrowR x0 x1 x3 b r) c := by
  have e : idx_main_v13 (idx_main_v14 (ix3 b r c)) = ix2 b r := funext fun a => by
    match a with
    | ⟨0, _⟩ => rfl
    | ⟨1, _⟩ => rfl
  rw [val_main_v16_apply, val_main_v15_apply, val_main_v14_apply, val_main_v13_apply, e, rowmax_apply, logits_apply]
  rfl

theorem rowsum_apply (b : Fin 16) (r : Fin 2048) :
    val_main_v17 (F := Ideal) x0 x1 x3 (ix2 b r) = Ideal.ofBits .f32 0x00000000#32 + rowSum (xrowR x0 x1 x3 b r) := by
  rw [val_main_v17_apply, val_main_cst_4_apply]
  unfold rowSum
  refine congrArg (Ideal.ofBits .f32 0x00000000#32 + ·) (Finset.sum_congr rfl fun k _ => ?_)
  rw [show idx_main_v17 (ix2 b r) k = ix3 b r k from funext fun a => by
    match a with
    | ⟨0, _⟩ => rfl
    | ⟨1, _⟩ => rfl
    | ⟨2, _⟩ => rfl]
  exact exps_apply x0 x1 x3 b r k

/-- The reference's attention output at (b, r, c). -/
theorem attn_apply (b : Fin 16) (r c : Fin 2048) : val_main_v20 (F := Ideal) x0 x1 x3 (ix3 b r c) = attnR (xrowR x0 x1 x3 b r) c := by
  have e : idx_main_v18 (idx_main_v19 (ix3 b r c)) = ix2 b r := funext fun a => by
    match a with
    | ⟨0, _⟩ => rfl
    | ⟨1, _⟩ => rfl
  rw [val_main_v20_apply, val_main_v19_apply, val_main_v18_apply, e, rowsum_apply, exps_apply]
  rfl

/-- The reference's result at (b, r, d). -/
theorem out_apply (b : Fin 16) (r : Fin 2048) (d : Fin 64) :
    val_main_v21 (F := Ideal) x0 x1 x2 x3 (ix3 b r d) = outR (xrowR x0 x1 x3 b r) (fun c => x2 (ix3 b c d)) := by
  rw [val_main_v21_apply]
  unfold outR
  refine Finset.sum_congr rfl fun k _ => ?_
  rw [show lidx_main_v21 (ix3 b r d) k = ix3 b r k from funext fun a => by
    match a with
    | ⟨0, _⟩ => rfl
    | ⟨1, _⟩ => rfl
    | ⟨2, _⟩ => rfl,
    show ridx_main_v21 (ix3 b r d) k = ix3 b k d from funext fun a => by
    match a with
    | ⟨0, _⟩ => rfl
    | ⟨1, _⟩ => rfl
    | ⟨2, _⟩ => rfl, attn_apply]

end Cert.ReferenceIdeal.Row

end
-- ==== Proof.Bridge.lean ====
/-
  The reference computes the same attention weights and the same result.

  Under the precondition — real queries, keys and values, mask words 0 or 1 — the reference's divided-and-shifted
  logits are the scaled-and-filled ones, each quotient by the row's sum is the product with its reciprocal, and the
  reciprocal moves out of the weighted sum of the value rows: row by row, `Cert.AttnRow.attn_row_eq` and `out_row_eq`.
-/
import proofs.«152861_j47175920779814_2_alg».proof.Proof.RefRow
import proofs.«152861_j47175920779814_2_alg».proof.Proof.AttnWhole

noncomputable section

namespace Cert.ReferenceIdeal.Bridge

open Cert.ReferenceIdeal Cert.ReferenceIdeal.Gen Cert.ReferenceIdeal.Read Idealize.ShloMosaic Idealize.ShloMosaic.ValueIdx
open Cert.AttnRow Cert.AttnWhole

variable (x0 x1 x2 : (⟨S16x2048x64, .f32⟩ : BufTy).Contents (Elt Ideal)) (x3 : (⟨S16x2048x2048, .i32⟩ : BufTy).Contents (Elt Ideal))

theorem attn_bridge (h0 : ∀ i, ∃ r : ℝ, x0 i = (r : EReal)) (h1 : ∀ i, ∃ r : ℝ, x1 i = (r : EReal))
    (h3 : ∀ i, x3 i = 0#32 ∨ x3 i = 1#32) :
    val_main_v20 (F := Ideal) x0 x1 x3 = GAttn x0 x1 x3 := by
  funext i
  obtain ⟨b, r, c, rfl⟩ : ∃ (b : Fin 16) (r c : Fin 2048), i = ix3 b r c := ⟨i 0, i 1, i 2, eq_ix3 i⟩
  rw [Row.attn_apply, GAttn_apply]
  exact (attn_row_eq (by decide) (fun d => x0 (ix3 b r d)) (fun c' d => x1 (ix3 b c' d)) (fun c' => x3 (ix3 b r c'))
    (fun d => h0 _) (fun c' d => h1 _) (fun c' => h3 _) c).symm

theorem out_bridge (h0 : ∀ i, ∃ r : ℝ, x0 i = (r : EReal)) (h1 : ∀ i, ∃ r : ℝ, x1 i = (r : EReal))
    (h2 : ∀ i, ∃ r : ℝ, x2 i = (r : EReal)) (h3 : ∀ i, x3 i = 0#32 ∨ x3 i = 1#32) :
    val_main_v21 (F := Ideal) x0 x1 x2 x3 = GOut x0 x1 x2 x3 := by
  funext i
  obtain ⟨b, r, d, rfl⟩ : ∃ (b : Fin 16) (r : Fin 2048) (d : Fin 64), i = ix3 b r d := ⟨i 0, i 1, i 2, eq_ix3 i⟩
  rw [Row.out_apply, GOut_apply]
  exact (out_row_eq (by decide) (fun d => x0 (ix3 b r d)) (fun c' d => x1 (ix3 b c' d)) (fun c' => x2 (ix3 b c' d))
    (fun c' => x3 (ix3 b r c')) (fun d => h0 _) (fun c' d => h1 _) (fun c' => h2 _) (fun c' => h3 _)).symm

end Cert.ReferenceIdeal.Bridge

end
-- ==== Proof.PreDecode.lean ====
/-
  The precondition read back: every entry of the three float arrays is a real number, and every word of the mask is 0 or 1.

  The predicate is a conjunction of four `all`s.  Each `all` that is true is true at every index.  At a float entry `x` it says
  |x| < +∞, and |x| = max x (−x) is +∞ exactly at the two infinities, so `x` is a real.  At a mask word `w` it says
  `w = 0` or `w = 1`.
-/
import proofs.«152861_j47175920779814_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

theorem ofBool_eq_one (b : Bool) : BitVec.ofBool b = 1#1 ↔ b = true := by cases b <;> decide

/-- |x| < +∞ on the extended reals: x is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  rw [ofBool_eq_one] at h
  have hlt : max x (-x) < ⊤ := of_decide_eq_true h
  induction x using EReal.rec with
  | bot => simp at hlt
  | coe r => exact ⟨r, rfl⟩
  | top => simp at hlt

/-- An equality test that came out true: the words are equal. -/
theorem eq_of_cmpi_eq (x y : BitVec 32) (h : IntOp.cmpi .eq x y = 1#1) : x = y := by
  unfold IntOp.cmpi at h
  rw [ofBool_eq_one] at h
  exact eq_of_beq h

/-- The precondition, decoded. -/
theorem decode {a0 a1 a2 : FVec Ideal S16x2048x64 .f32} {a3 : IVec S16x2048x2048 32}
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ ∀ i, a3 i = 0#32 ∨ a3 i = 1#32 := by
  have e := congrFun h ix0
  dsimp only [fn, fn_part1] at e
  simp only [andi] at e
  rw [IntOp.andi_eq_one, IntOp.andi_eq_one, IntOp.andi_eq_one] at e
  obtain ⟨⟨⟨h0, h1⟩, h2⟩, h3⟩ := e
  refine ⟨fun i => ?_, fun i => ?_, fun i => ?_, fun i => ?_⟩
  · exact real_of_abs_lt _ (Host.reduce_andi_all _ _ _ _ ix0 h0 i)
  · exact real_of_abs_lt _ (Host.reduce_andi_all _ _ _ _ ix0 h1 i)
  · exact real_of_abs_lt _ (Host.reduce_andi_all _ _ _ _ ix0 h2 i)
  · have hi := Host.reduce_andi_all _ _ _ _ ix0 h3 i
    change IntOp.ori (IntOp.cmpi .eq (a3 i) 0#32) (IntOp.cmpi .eq (a3 i) 1#32) = 1#1 at hi
    rcases IntOp.ori_eq_one.1 hi with h' | h'
    · exact Or.inl (eq_of_cmpi_eq _ _ h')
    · exact Or.inr (eq_of_cmpi_eq _ _ h')

end Cert.Pre_finite_inputs.Decode

end
-- ==== Proof.lean ====
/-
  Scaled-dot-product attention with an additive 0/1 mask: a tiled kernel against the plain formulation, on the extended
  reals.

  Both programs take queries, keys and values `[16, 2048, 64]` and mask words `[16, 2048, 2048]`, and return the attention
  result `[16, 2048, 64]` and the attention weights `[16, 2048, 2048]`.

  The kernel works on 256 query rows of one batch at a time against the batch's 2048 keys and values.  Row by row it takes
  the scores (query · key), multiplies by 1/8, adds −10⁹ where the mask word is zero, subtracts the row's maximum,
  exponentiates, sums, and takes the reciprocal `1/l` of the sum.  The weights it stores are `e · (1/l)`, and the result
  `(Σ_c e_c · v_c) · (1/l)`.

  The reference divides the scores by √64, adds −10⁹ · (1 − mask), takes the softmax as `e / l`, and the result as
  `Σ_c (e_c / l) · v_c`.

  Under the precondition — every float entry finite, every mask word 0 or 1 — the two agree:
  • √64 = 8, and division by 8 is multiplication by 1/8 on every extended real; for a mask word 0 the reference adds
    −10⁹ · 1, for a mask word 1 it adds −10⁹ · 0 = 0: the logits are the same;
  • the logits are real numbers, so the row maximum is a real, every exponential a positive real, and the row sum `l` a
    positive real; then `e / l = e · (1/l)`, and the real factor `1/l` moves out of the finite sum.
  The mask hypothesis is needed: on a mask word 2 the reference adds +10⁹ to that logit and the kernel adds nothing.

  The modules: `AttnRow` (one row, pure extended-real algebra), `AttnWhole` (the two outputs as functions of whole arrays),
  `KernelRow` and `KernelBlocks` (the kernel's block arithmetic read at an index; the blocks tile the outputs),
  `RefRow` and `Bridge` (the reference read at an index, and its agreement with the whole-array functions),
  `PreDecode` (the precondition read back).
-/
import proofs.«152861_j47175920779814_2_alg».proof.Defs
import proofs.«152861_j47175920779814_2_alg».proof.Proof.Gen.Kernel
import proofs.«152861_j47175920779814_2_alg».proof.Proof.Gen.Kernel.Frame
import proofs.«152861_j47175920779814_2_alg».proof.Proof.Gen.KernelIdeal
import proofs.«152861_j47175920779814_2_alg».proof.Proof.Gen.KernelIdeal.Frame
import proofs.«152861_j47175920779814_2_alg».proof.Proof.Gen.ReferenceIdeal
import proofs.«152861_j47175920779814_2_alg».proof.Proof.Gen.KernelIdeal.Value
import proofs.«152861_j47175920779814_2_alg».proof.Proof.Gen.ReferenceIdeal.Run
import proofs.«152861_j47175920779814_2_alg».proof.Proof.Gen.ReferenceIdeal.Read
import proofs.«152861_j47175920779814_2_alg».proof.Proof.Gen.Pre_finite_inputs
import proofs.«152861_j47175920779814_2_alg».proof.Proof.KernelBlocks
import proofs.«152861_j47175920779814_2_alg».proof.Proof.Bridge
import proofs.«152861_j47175920779814_2_alg».proof.Proof.PreDecode
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs to the end and leaves its arguments as they were: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel read on the extended reals is the kernel's own text: nothing was rewritten. -/
theorem preserves : Cert.preserves_Kernel_KernelIdeal := trivial

/-- From memories that agree on the arguments, under the precondition, both programs end with the same result and the
    same attention weights: the kernel's arrays are the whole-array functions (`Blocks.run`), and the reference's terms are
    those functions of real entries and 0/1 mask words (`Bridge`). -/
theorem algebraic : Cert.algebraic_KernelIdeal_ReferenceIdeal := by
  intro m ρ m' ρ' hpre hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨d0, d1, d2, d3⟩ := Cert.Pre_finite_inputs.Decode.decode (hpre c)
    refine (Cert.ReferenceIdeal.Read.val_main_v21_eq _ _ _ _).trans ?_
    rw [(hagree c).1, (hagree c).2.1, (hagree c).2.2.1, (hagree c).2.2.2]
    exact Cert.ReferenceIdeal.Bridge.out_bridge _ _ _ _ d0 d1 d2 d3
  · obtain ⟨d0, d1, d2, d3⟩ := Cert.Pre_finite_inputs.Decode.decode (hpre c)
    refine (Cert.ReferenceIdeal.Read.val_main_v20_eq _ _ _).trans ?_
    rw [(hagree c).1, (hagree c).2.1, (hagree c).2.2.2]
    exact Cert.ReferenceIdeal.Bridge.attn_bridge _ _ _ d0 d1 d3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
